-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S8x512x512 : Shape := ⟨3, ![8, 512, 512]⟩
abbrev S8x512 : Shape := ⟨2, ![8, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16x4096x512 .f32) (main_arg1 : FVec F S8x512x512 .f32) (main_arg2 : FVec F S8x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16x4096x512 : Shape := ⟨3, ![16, 4096, 512]⟩
abbrev S8x512x512 : Shape := ⟨3, ![8, 512, 512]⟩
abbrev S8x512 : Shape := ⟨2, ![8, 512]⟩
abbrev S64 : Shape := ⟨1, ![64]⟩
abbrev S8x1x512 : Shape := ⟨3, ![8, 1, 512]⟩
abbrev S16x64x512 : Shape := ⟨3, ![16, 64, 512]⟩
abbrev S1 : Shape := ⟨1, ![1]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 5
  | .vmem => 8
  | .smem => 2
  | _ => 0

abbrev bufTy : (tb : Table) → Fin (tcTables nBuf tb) → BufTy
  | .hbm, ⟨0, _⟩ => ⟨S16x4096x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S16x4096x512, .f32⟩
  | .local _ .vmem, ⟨0, _⟩ => ⟨S16x64x512, .f32⟩
  | .local _ .vmem, ⟨1, _⟩ => ⟨S16x64x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S16x64x512, .f32⟩
  | .local _ .vmem, ⟨7, _⟩ => ⟨S16x64x512, .f32⟩
  | .local _ .smem, ⟨0, _⟩ => ⟨S64, .i32⟩
  | .local _ .smem, ⟨1, _⟩ => ⟨S64, .i32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512_S8x1x512 : S8x512.ShapeCasts S8x1x512
  numel1_S1 : S1.numel = 1
  inb_S16x64x512_S16x64x512_0_0_0 : ∀ a, (![0, 0, 0] : Fin 3 → Nat) a + S16x64x512.size a ≤ S16x64x512.size a
  h_S16x64x512 : 0 < S16x64x512.numel
  bitsLt_bf16_f32 : FTy.bits .bf16 < FTy.bits .f32
  shapeCasts_S16x64x512_S1024x512 : S16x64x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  shapeCasts_S1024x512_S16x64x512 : S1024x512.ShapeCasts S16x64x512
  dot_S1024x512_S512x512_S1024x512_1_1_0_0_n_n_wf : DotDims.WF S1024x512 S512x512 S1024x512 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev spec0_0 : Pipeline.WinSpec sig grid0.rank :=
  Pipeline.WinSpec.ofSpec (Memref.whole main_arg0) S16x64x512.size reads0_0 false false 2 stage0_0 sem0_0 nbuf0_0 hstage0_0

abbrev spec0_1 : Pipeline.WinSpec sig grid0.rank :=
  Pipeline.WinSpec.ofSpec (Memref.whole main_arg1) S1x512x512.size reads0_1 false false 2 stage0_1 sem0_1 nbuf0_1 hstage0_1

abbrev spec0_2 : Pipeline.WinSpec sig grid0.rank :=
  Pipeline.WinSpec.ofSpec (Memref.whole main_v0) S1x1x512.size reads0_2 false false 2 stage0_2 sem0_2 nbuf0_2 hstage0_2

abbrev spec0_3 : Pipeline.WinSpec sig grid0.rank :=
  Pipeline.WinSpec.ofSpec (Memref.whole main_v1) S16x64x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S16x64x512.size a ≤ S16x4096x512.size a), EltTy.bits .f32 = 32 ∨ (Rect.block (s := S16x4096x512) S16x64x512.size (cc0_transform_0 k0_off1_inb numel1_S1 pf i) h).WholeWords (EltTy.packing .f32)) ∧
  (∀ i : grid0.Coords, ∃ h : (∀ a, (cc0_transform_1 k0_off1_inb numel1_S1 pf i a + 1) * S1x512x512.size a ≤ S8x512x512.size a), EltTy.bits .f32 = 32 ∨ (Rect.block (s := S8x512x512) S1x512x512.size (cc0_transform_1 k0_off1_inb numel1_S1 pf i) h).WholeWords (EltTy.packing .f32)) ∧
  (∀ i : grid0.Coords, ∃ h : (∀ a, (cc0_transform_2 k0_off1_inb numel1_S1 pf i a + 1) * S1x1x512.size a ≤ S8x1x512.size a), EltTy.bits .f32 = 32 ∨ (Rect.block (s := S8x1x512) S1x1x512.size (cc0_transform_2 k0_off1_inb numel1_S1 pf i) h).WholeWords (EltTy.packing .f32)) ∧
  (∀ i : grid0.Coords, ∃ h : (∀ a, (cc0_transform_3 k0_off1_inb numel1_S1 pf i a + 1) * S16x64x512.size a ≤ S16x4096x512.size a), EltTy.bits .f32 = 32 ∨ (Rect.block (s := S16x4096x512) S16x64x512.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x4096x512 : Shape := ⟨3, ![16, 4096, 512]⟩
abbrev S8x512x512 : Shape := ⟨3, ![8, 512, 512]⟩
abbrev S8x512 : Shape := ⟨2, ![8, 512]⟩
abbrev S16x256x512 : Shape := ⟨3, ![16, 256, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S16x512x512 : Shape := ⟨3, ![16, 512, 512]⟩
abbrev S16x768x512 : Shape := ⟨3, ![16, 768, 512]⟩
abbrev S16x384x512 : Shape := ⟨3, ![16, 384, 512]⟩
abbrev S16x640x512 : Shape := ⟨3, ![16, 640, 512]⟩
abbrev S16x576x512 : Shape := ⟨3, ![16, 576, 512]⟩
abbrev S16x448x512 : Shape := ⟨3, ![16, 448, 512]⟩

abbrev nBuf : Space → Nat
  | .hbm => 76
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S8x512x512, .f32⟩
  | .hbm, ⟨2, _⟩ => ⟨S8x512, .f32⟩
  | .hbm, ⟨3, _⟩ => ⟨S16x256x512, .f32⟩
  | .hbm, ⟨4, _⟩ => ⟨S1x512x512, .f32⟩
  | .hbm, ⟨5, _⟩ => ⟨S512x512, .f32⟩
  | .hbm, ⟨6, _⟩ => ⟨S16x256x512, .f32⟩
  | .hbm, ⟨7, _⟩ => ⟨S1x512, .f32⟩
  | .hbm, ⟨8, _⟩ => ⟨S512, .f32⟩
  | .hbm, ⟨9, _⟩ => ⟨S1x1x512, .f32⟩
  | .hbm, ⟨10, _⟩ => ⟨S16x256x512, .f32⟩
  | .hbm, ⟨11, _⟩ => ⟨S16x256x512, .f32⟩
  | .hbm, ⟨12, _⟩ => ⟨S16x512x512, .f32⟩
  | .hbm, ⟨13, _⟩ => ⟨S1x512x512, .f32⟩
  | .hbm, ⟨14, _⟩ => ⟨S512x512, .f32⟩
  | .hbm, ⟨15, _⟩ => ⟨S16x512x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S16x512x512, .f32⟩
  | .hbm, ⟨20, _⟩ => ⟨S16x512x512, .f32⟩
  | .hbm, ⟨21, _⟩ => ⟨S16x768x512, .f32⟩
  | .hbm, ⟨22, _⟩ => ⟨S1x512x512, .f32⟩
  | .hbm, ⟨23, _⟩ => ⟨S512x512, .f32⟩
  | .hbm, ⟨24, _⟩ => ⟨S16x768x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S16x768x512, .f32⟩
  | .hbm, ⟨29, _⟩ => ⟨S16x768x512, .f32⟩
  | .hbm, ⟨30, _⟩ => ⟨S16x384x512, .f32⟩
  | .hbm, ⟨31, _⟩ => ⟨S1x512x512, .f32⟩
  | .hbm, ⟨32, _⟩ => ⟨S512x512, .f32⟩
  | .hbm, ⟨33, _⟩ => ⟨S16x384x512, .f32⟩
  | .hbm, ⟨34, _⟩ => ⟨S1x512, .f32⟩
  | .hbm, ⟨35, _⟩ => ⟨S512, .f32⟩
  | .hbm, ⟨36, _⟩ => ⟨S1x1x512, .f32⟩
  | .hbm, ⟨37, _⟩ => ⟨S16x384x512, .f32⟩
  | .hbm, ⟨38, _⟩ => ⟨S16x384x512, .f32⟩
  | .hbm, ⟨39, _⟩ => ⟨S16x640x512, .f32⟩
  | .hbm, ⟨40, _⟩ => ⟨S1x512x512, .f32⟩
  | .hbm, ⟨41, _⟩ => ⟨S512x512, .f32⟩
  | .hbm, ⟨42, _⟩ => ⟨S16x640x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S16x640x512, .f32⟩
  | .hbm, ⟨47, _⟩ => ⟨S16x640x512, .f32⟩
  | .hbm, ⟨48, _⟩ => ⟨S16x512x512, .f32⟩
  | .hbm, ⟨49, _⟩ => ⟨S1x512x512, .f32⟩
  | .hbm, ⟨50, _⟩ => ⟨S512x512, .f32⟩
  | .hbm, ⟨51, _⟩ => ⟨S16x512x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S16x512x512, .f32⟩
  | .hbm, ⟨56, _⟩ => ⟨S16x512x512, .f32⟩
  | .hbm, ⟨57, _⟩ => ⟨S16x576x512, .f32⟩
  | .hbm, ⟨58, _⟩ => ⟨S1x512x512, .f32⟩
  | .hbm, ⟨59, _⟩ => ⟨S512x512, .f32⟩
  | .hbm, ⟨60, _⟩ => ⟨S16x576x512, .f32⟩
  | .hbm, ⟨61, _⟩ => ⟨S1x512, .f32⟩
  | .hbm, ⟨62, _⟩ => ⟨S512, .f32⟩
  | .hbm, ⟨63, _⟩ => ⟨S1x1x512, .f32⟩
  | .hbm, ⟨64, _⟩ => ⟨S16x576x512, .f32⟩
  | .hbm, ⟨65, _⟩ => ⟨S16x576x512, .f32⟩
  | .hbm, ⟨66, _⟩ => ⟨S16x448x512, .f32⟩
  | .hbm, ⟨67, _⟩ => ⟨S1x512x512, .f32⟩
  | .hbm, ⟨68, _⟩ => ⟨S512x512, .f32⟩
  | .hbm, ⟨69, _⟩ => ⟨S16x448x512, .f32⟩
  | .hbm, ⟨70, _⟩ => ⟨S1x512, .f32⟩
  | .hbm, ⟨71, _⟩ => ⟨S512, .f32⟩
  | .hbm, ⟨72, _⟩ => ⟨S1x1x512, .f32⟩
  | .hbm, ⟨73, _⟩ => ⟨S16x448x512, .f32⟩
  | .hbm, ⟨74, _⟩ => ⟨S16x448x512, .f32⟩
  | .hbm, ⟨75, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩

abbrev nD : Nat := 1
abbrev τ : Topo := Topo.v7x

variable {F : FTy → Type} [FloatOps F]

class Facts₀ : Prop where
  slices_S16x4096x512_S16x256x512_0_0_0 : S16x4096x512.Slices ![0, 0, 0] S16x256x512
  slices_S8x512x512_S1x512x512_0_0_0 : S8x512x512.Slices ![0, 0, 0] S1x512x512
  shapeCasts_S1x512x512_S512x512 : S1x512x512.ShapeCasts S512x512
  slices_S8x512_S1x512_0_0 : S8x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S16x256x512_0_1_2 : S1x1x512.BroadcastsInDim S16x256x512 (![0, 1, 2] : Fin 3 → Fin S16x256x512.rank)
  slices_S16x4096x512_S16x512x512_0_256_0 : S16x4096x512.Slices ![0, 256, 0] S16x512x512
  slices_S8x512x512_S1x512x512_1_0_0 : S8x512x512.Slices ![1, 0, 0] S1x512x512
  slices_S8x512_S1x512_1_0 : S8x512.Slices ![1, 0] S1x512
  bcast_S1x1x512_S16x512x512_0_1_2 : S1x1x512.BroadcastsInDim S16x512x512 (![0, 1, 2] : Fin 3 → Fin S16x512x512.rank)
  slices_S16x4096x512_S16x768x512_0_768_0 : S16x4096x512.Slices ![0, 768, 0] S16x768x512
  slices_S8x512x512_S1x512x512_2_0_0 : S8x512x512.Slices ![2, 0, 0] S1x512x512
  slices_S8x512_S1x512_2_0 : S8x512.Slices ![2, 0] S1x512
  bcast_S1x1x512_S16x768x512_0_1_2 : S1x1x512.BroadcastsInDim S16x768x512 (![0, 1, 2] : Fin 3 → Fin S16x768x512.rank)
  slices_S16x4096x512_S16x384x512_0_1536_0 : S16x4096x512.Slices ![0, 1536, 0] S16x384x512
  slices_S8x512x512_S1x512x512_3_0_0 : S8x512x512.Slices ![3, 0, 0] S1x512x512
  slices_S8x512_S1x512_3_0 : S8x512.Slices ![3, 0] S1x512
  bcast_S1x1x512_S16x384x512_0_1_2 : S1x1x512.BroadcastsInDim S16x384x512 (![0, 1, 2] : Fin 3 → Fin S16x384x512.rank)
  slices_S16x4096x512_S16x640x512_0_1920_0 : S16x4096x512.Slices ![0, 1920, 0] S16x640x512
  slices_S8x512x512_S1x512x512_4_0_0 : S8x512x512.Slices ![4, 0, 0] S1x512x512
  slices_S8x512_S1x512_4_0 : S8x512.Slices ![4, 0] S1x512
  bcast_S1x1x512_S16x640x512_0_1_2 : S1x1x512.BroadcastsInDim S16x640x512 (![0, 1, 2] : Fin 3 → Fin S16x640x512.rank)
  slices_S16x4096x512_S16x512x512_0_2560_0 : S16x4096x512.Slices ![0, 2560, 0] S16x512x512
  slices_S8x512x512_S1x512x512_5_0_0 : S8x512x512.Slices ![5, 0, 0] S1x512x512
  slices_S8x512_S1x512_5_0 : S8x512.Slices ![5, 0] S1x512
  slices_S16x4096x512_S16x576x512_0_3072_0 : S16x4096x512.Slices ![0, 3072, 0] S16x576x512
  slices_S8x512x512_S1x512x512_6_0_0 : S8x512x512.Slices ![6, 0, 0] S1x512x512
  slices_S8x512_S1x512_6_0 : S8x512.Slices ![6, 0] S1x512
  bcast_S1x1x512_S16x576x512_0_1_2 : S1x1x512.BroadcastsInDim S16x576x512 (![0, 1, 2] : Fin 3 → Fin S16x576x512.rank)
  slices_S16x4096x512_S16x448x512_0_3648_0 : S16x4096x512.Slices ![0, 3648, 0] S16x448x512
  slices_S8x512x512_S1x512x512_7_0_0 : S8x512x512.Slices ![7, 0, 0] S1x512x512
  slices_S8x512_S1x512_7_0 : S8x512.Slices ![7, 0] S1x512
  bcast_S1x1x512_S16x448x512_0_1_2 : S1x1x512.BroadcastsInDim S16x448x512 (![0, 1, 2] : Fin 3 → Fin S16x448x512.rank)
  concatenates_S16x256x512_S16x512x512_S16x768x512_S16x384x512_S16x640x512_S16x512x512_S16x576x512_S16x448x512_S16x4096x512_d1 : Shape.Concatenates [S16x256x512, S16x512x512, S16x768x512, S16x384x512, S16x640x512, S16x512x512, S16x576x512, S16x448x512] S16x4096x512 1
  dot_S16x256x512_S512x512_S16x256x512_2_1_01_0_n_n_wf : DotDims.WF S16x256x512 S512x512 S16x256x512 [2] [1] [0, 1] [0] [] []
  dot_S16x512x512_S512x512_S16x512x512_2_1_01_0_n_n_wf : DotDims.WF S16x512x512 S512x512 S16x512x512 [2] [1] [0, 1] [0] [] []
  dot_S16x768x512_S512x512_S16x768x512_2_1_01_0_n_n_wf : DotDims.WF S16x768x512 S512x512 S16x768x512 [2] [1] [0, 1] [0] [] []
  dot_S16x384x512_S512x512_S16x384x512_2_1_01_0_n_n_wf : DotDims.WF S16x384x512 S512x512 S16x384x512 [2] [1] [0, 1] [0] [] []
  dot_S16x640x512_S512x512_S16x640x512_2_1_01_0_n_n_wf : DotDims.WF S16x640x512 S512x512 S16x640x512 [2] [1] [0, 1] [0] [] []
  dot_S16x576x512_S512x512_S16x576x512_2_1_01_0_n_n_wf : DotDims.WF S16x576x512 S512x512 S16x576x512 [2] [1] [0, 1] [0] [] []
  dot_S16x448x512_S512x512_S16x448x512_2_1_01_0_n_n_wf : DotDims.WF S16x448x512 S512x512 S16x448x512 [2] [1] [0, 1] [0] [] []

variable [Facts₀]

def dot_S16x256x512_S512x512_S16x256x512_2_1_01_0_n_n : DotDims S16x256x512 S512x512 S16x256x512 where
  lhsContracting := [2]
  rhsContracting := [1]
  lhsNonContracting := [0, 1]
  rhsNonContracting := [0]
  lhsBatch := []
  rhsBatch := []
  wf := dot_S16x256x512_S512x512_S16x256x512_2_1_01_0_n_n_wf
def dot_S16x512x512_S512x512_S16x512x512_2_1_01_0_n_n : DotDims S16x512x512 S512x512 S16x512x512 where
  lhsContracting := [2]
  rhsContracting := [1]
  lhsNonContracting := [0, 1]
  rhsNonContracting := [0]
  lhsBatch := []
  rhsBatch := []
  wf := dot_S16x512x512_S512x512_S16x512x512_2_1_01_0_n_n_wf
def dot_S16x768x512_S512x512_S16x768x512_2_1_01_0_n_n : DotDims S16x768x512 S512x512 S16x768x512 where
  lhsContracting := [2]
  rhsContracting := [1]
  lhsNonContracting := [0, 1]
  rhsNonContracting := [0]
  lhsBatch := []
  rhsBatch := []
  wf := dot_S16x768x512_S512x512_S16x768x512_2_1_01_0_n_n_wf
def dot_S16x384x512_S512x512_S16x384x512_2_1_01_0_n_n : DotDims S16x384x512 S512x512 S16x384x512 where
  lhsContracting := [2]
  rhsContracting := [1]
  lhsNonContracting := [0, 1]
  rhsNonContracting := [0]
  lhsBatch := []
  rhsBatch := []
  wf := dot_S16x384x512_S512x512_S16x384x512_2_1_01_0_n_n_wf
def dot_S16x640x512_S512x512_S16x640x512_2_1_01_0_n_n : DotDims S16x640x512 S512x512 S16x640x512 where
  lhsContracting := [2]
  rhsContracting := [1]
  lhsNonContracting := [0, 1]
  rhsNonContracting := [0]
  lhsBatch := []
  rhsBatch := []
  wf := dot_S16x640x512_S512x512_S16x640x512_2_1_01_0_n_n_wf
def dot_S16x576x512_S512x512_S16x576x512_2_1_01_0_n_n : DotDims S16x576x512 S512x512 S16x576x512 where
  lhsContracting := [2]
  rhsContracting := [1]
  lhsNonContracting := [0, 1]
  rhsNonContracting := [0]
  lhsBatch := []
  rhsBatch := []
  wf := dot_S16x576x512_S512x512_S16x576x512_2_1_01_0_n_n_wf
def dot_S16x448x512_S512x512_S16x448x512_2_1_01_0_n_n : DotDims S16x448x512 S512x512 S16x448x512 where
  lhsContracting := [2]
  rhsContracting := [1]
  lhsNonContracting := [0, 1]
  rhsNonContracting := [0]
  lhsBatch := []
  rhsBatch := []
  wf := dot_S16x448x512_S512x512_S16x448x512_2_1_01_0_n_n_wf

class Facts : Prop extends Facts₀ where

variable [Facts]
-- ==== Proof.Spec.lean ====
/-
  The function both programs compute, stated once over literal shapes and importing neither program.

  Eight linear maps, each with its own 512×512 weight matrix and bias row, are applied to eight consecutive
  slabs of the 4096 tokens: tokens 0–255 go through map 0, 256–767 through map 1, 768–1535 through map 2,
  1536–1919 through map 3, 1920–2559 through map 4, 2560–3071 through map 5, 3072–3647 through map 6 and
  3648–4095 through map 7. Entry (p, r, o) of the result is the inner product of token r of batch row p with
  row o of the weight matrix of r's map, plus entry o of that map's bias:

      out[p, r, o] = Σ_k x[p, r, k] · W[g(r), o, k] + b[g(r), o].

  Every slab boundary is a multiple of 64, so a run of 64 tokens starting at a multiple of 64 lies in one slab
  (`slabOf_tile`).
-/
import Idealize.ShloMosaic.PureOps.Ideal
import Idealize.ShloMosaic.Lib.ValueIdx

noncomputable section

namespace Cert.Spec

open Idealize.ShloMosaic Idealize.ShloMosaic.ValueIdx

/-- The map a token goes through, as a number: the slab of the token axis it lies in. -/
def slabOf (r : Nat) : Nat :=
  if r < 256 then 0 else if r < 768 then 1 else if r < 1536 then 2 else if r < 1920 then 3
  else if r < 2560 then 4 else if r < 3072 then 5 else if r < 3648 then 6 else 7

theorem slabOf_lt (r : Nat) : slabOf r < 8 := by unfold slabOf; split_ifs <;> omega

/-- The map a token goes through. -/
def tokGroup (r : Fin 4096) : Fin 8 := ⟨slabOf r.val, slabOf_lt _⟩

/-- The slab a token lies in, from the slab's two ends. -/
theorem slabOf_of_bounds (r g lo hi : Nat)
    (hg : (g = 0 ∧ lo = 0 ∧ hi = 256) ∨ (g = 1 ∧ lo = 256 ∧ hi = 768) ∨ (g = 2 ∧ lo = 768 ∧ hi = 1536) ∨ (g = 3 ∧ lo = 1536 ∧ hi = 1920)
      ∨ (g = 4 ∧ lo = 1920 ∧ hi = 2560) ∨ (g = 5 ∧ lo = 2560 ∧ hi = 3072) ∨ (g = 6 ∧ lo = 3072 ∧ hi = 3648) ∨ (g = 7 ∧ lo = 3648 ∧ hi = 4096))
    (h0 : lo ≤ r) (h1 : r < hi) : slabOf r = g := by
  unfold slabOf; split_ifs <;> omega

theorem tokGroup_of_bounds (r : Fin 4096) (g : Fin 8) (lo hi : Nat)
    (hg : (g.val = 0 ∧ lo = 0 ∧ hi = 256) ∨ (g.val = 1 ∧ lo = 256 ∧ hi = 768) ∨ (g.val = 2 ∧ lo = 768 ∧ hi = 1536) ∨ (g.val = 3 ∧ lo = 1536 ∧ hi = 1920)
      ∨ (g.val = 4 ∧ lo = 1920 ∧ hi = 2560) ∨ (g.val = 5 ∧ lo = 2560 ∧ hi = 3072) ∨ (g.val = 6 ∧ lo = 3072 ∧ hi = 3648) ∨ (g.val = 7 ∧ lo = 3648 ∧ hi = 4096))
    (h0 : lo ≤ r.val) (h1 : r.val < hi) : tokGroup r = g :=
  Fin.ext (slabOf_of_bounds r.val g.val lo hi hg h0 h1)

/-- Tokens 64t … 64t + 63 lie in one slab: every slab boundary is a multiple of 64. -/
theorem slabOf_tile (t q : Nat) (hq : q < 64) : slabOf (t * 64 + q) = slabOf (t * 64) := by
  unfold slabOf; split_ifs <;> omega

/-- The three argument shapes and the result's. -/
abbrev SX : Shape := ⟨3, ![16, 4096, 512]⟩
abbrev SW : Shape := ⟨3, ![8, 512, 512]⟩
abbrev SB : Shape := ⟨2, ![8, 512]⟩

/-- Entry (p, r, o) of the result: token r of batch row p against row o of its map's weights, plus the bias. -/
def entry (x : FVec Ideal SX .f32) (W : FVec Ideal SW .f32) (b : FVec Ideal SB .f32) (p : Fin 16) (r : Fin 4096) (o : Fin 512) : EReal :=
  (∑ k : Fin 512, x (ix3 p r k) * W (ix3 (tokGroup r) o k)) + b (ix2 (tokGroup r) o)

/-- The whole result array. -/
def G (x : FVec Ideal SX .f32) (W : FVec Ideal SW .f32) (b : FVec Ideal SB .f32) : FVec Ideal SX .f32 :=
  fun i => entry x W b (i 0) (i 1) (i 2)

theorem G_apply (x : FVec Ideal SX .f32) (W : FVec Ideal SW .f32) (b : FVec Ideal SB .f32) (p : Fin 16) (r : Fin 4096) (o : Fin 512) :
    G x W b (ix3 p r o) = entry x W b p r o := rfl

end Cert.Spec

end
-- ==== Proof.TablesBits.lean ====
/-
  The two tables the index maps read, and the index maps at them.

  The tables are constants of the program, written by two host operations before the launch: the first gives each
  of the 64 token tiles the number of the linear map its tokens go through (tiles 0–3 map 0, 4–11 map 1, 12–23
  map 2, 24–29 map 3, 30–39 map 4, 40–47 map 5, 48–56 map 6, 57–63 map 7), the second gives tile t the block
  offset t along the token axis. So at grid point t the token window and the result window sit at block
  (0, t, 0), and the weight and bias windows at block (g, 0, 0) with g the map of tile t, which is the map of
  token 64t. Every such block lies inside its array — tile t of 64 tokens inside the 4096, map g among the 8 —
  whatever the argument arrays hold, so the side condition of the launch holds with no assumption on the inputs.
-/
import proofs.«180724_j60215441490419_1_alg».proof.Proof.Gen.Kernel.Frame
import proofs.«180724_j60215441490419_1_alg».proof.Proof.Spec
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## The tables' contents -/

/-- The first table holds the literal map numbers. -/
theorem tbl_group (i : S64.Idx) : (tbl m 0 : S64.Idx → BitVec 32) i = lit0 (S64.rowMajor i) := by
  have e : (tbl m 0 : S64.Idx → BitVec 32) = fun i => lit0 (S64.rowMajor i) := by
    unfold tbl
    show V m (0 : Dev nD) main_c = _
    unfold V
    simp only [hostOps0]
    after_results
    rfl
  rw [e]

/-- The second table holds the literal tile offsets. -/
theorem tbl_offset (i : S64.Idx) : (tbl m 1 : S64.Idx → BitVec 32) i = lit1 (S64.rowMajor i) := by
  have e : (tbl m 1 : S64.Idx → BitVec 32) = fun i => lit1 (S64.rowMajor i) := by
    unfold tbl
    show V m (0 : Dev nD) main_c_0 = _
    unfold V
    simp only [hostOps0]
    after_results
    rfl
  rw [e]

/-- Tile t's offset is t, and its map is the map of token 64t. -/
theorem lit1_val : ∀ n : Fin 64, (lit1 n).toNat = n.val := by decide
theorem lit0_val : ∀ n : Fin 64, (lit0 n).toNat = Cert.Spec.slabOf (n.val * 64) := by decide

/-! ## A word of a table -/

/-- The one element of a unit rectangle of a [64] table at offset n is element n. -/
theorem word_idx (off : Fin 1 → Nat) (n : Nat) (hoff : off 0 = n) (inb : ∀ a, off a + S1.size a ≤ S64.size a) (h1 : 0 < S1.numel) :
    (S64.rowMajor ((Rect.unit (s := S64) off S1.size inb).emb (Shape.Idx.first h1))).val = n := by
  rw [Shape.rowMajor_val_one]
  show off 0 + 1 * (Shape.Idx.first h1 (0 : Fin 1)).val = n
  have : (Shape.Idx.first h1 (0 : Fin 1)).val = 0 := by
    have := (Shape.Idx.first h1 (0 : Fin 1)).isLt
    have e : S1.size (0 : Fin 1) = 1 := by decide
    omega
  rw [this, hoff]; omega

/-- The offset an index map reads its table at is the grid coordinate. -/
theorem off_eq (i : grid0.Coords) : k0_off1 i 0 = (i 0).val := congrFun (k0_off1_eq i) 0

/-- The word of the offsets table an index map reads at grid coordinate i is i. -/
theorem word_offset (pf : pre0.Contents (Elt F)) (h1 : ∀ j : S64.Idx, (pf 1 : S64.Idx → BitVec 32) j = lit1 (S64.rowMajor j)) (i : grid0.Coords) :
    (pf.at 1 (Rect.unit (s := S64) (k0_off1 i) S1.size (k0_off1_inb i)) numel1_S1).toNat = (i 0).val := by
  have hn := word_idx (k0_off1 i) (i 0).val (off_eq i) (k0_off1_inb i) (numel1_S1.symm ▸ Nat.one_pos)
  have hlt : (i 0).val < 64 := (i 0).isLt
  refine (congrArg BitVec.toNat (h1 _)).trans ?_
  exact (congrArg (fun n : Fin 64 => (lit1 n).toNat) (Fin.ext hn : _ = (⟨(i 0).val, hlt⟩ : Fin 64))).trans (lit1_val _)

/-- The word of the maps table an index map reads at grid coordinate i is the map of token 64i. -/
theorem word_group (pf : pre0.Contents (Elt F)) (h0 : ∀ j : S64.Idx, (pf 0 : S64.Idx → BitVec 32) j = lit0 (S64.rowMajor j)) (i : grid0.Coords) :
    (pf.at 0 (Rect.unit (s := S64) (k0_off1 i) S1.size (k0_off1_inb i)) numel1_S1).toNat = Cert.Spec.slabOf ((i 0).val * 64) := by
  have hn := word_idx (k0_off1 i) (i 0).val (off_eq i) (k0_off1_inb i) (numel1_S1.symm ▸ Nat.one_pos)
  have hlt : (i 0).val < 64 := (i 0).isLt
  refine (congrArg BitVec.toNat (h0 _)).trans ?_
  exact (congrArg (fun n : Fin 64 => (lit0 n).toNat) (Fin.ext hn : _ = (⟨(i 0).val, hlt⟩ : Fin 64))).trans (lit0_val _)

/-! ## The index maps at the tables -/

/-- The token window at grid coordinate i is block (0, i, 0); -/
theorem map_tokens (pf : pre0.Contents (Elt F)) (h1 : ∀ j : S64.Idx, (pf 1 : S64.Idx → BitVec 32) j = lit1 (S64.rowMajor j)) (i : grid0.Coords) :
    cc0_transform_0 k0_off1_inb numel1_S1 pf i = ![0, (i 0).val, 0] := by
  have hw := word_offset pf h1 i
  unfold cc0_transform_0
  exact congrArg (fun n => (![0, n, 0] : Fin 3 → Nat)) hw

/-- the weight window is block (g, 0, 0), g the map of token 64i; -/
theorem map_weights (pf : pre0.Contents (Elt F)) (h0 : ∀ j : S64.Idx, (pf 0 : S64.Idx → BitVec 32) j = lit0 (S64.rowMajor j)) (i : grid0.Coords) :
    cc0_transform_1 k0_off1_inb numel1_S1 pf i = ![Cert.Spec.slabOf ((i 0).val * 64), 0, 0] := by
  have hw := word_group pf h0 i
  unfold cc0_transform_1
  exact congrArg (fun n => (![n, 0, 0] : Fin 3 → Nat)) hw

/-- the bias window likewise; -/
theorem map_bias (pf : pre0.Contents (Elt F)) (h0 : ∀ j : S64.Idx, (pf 0 : S64.Idx → BitVec 32) j = lit0 (S64.rowMajor j)) (i : grid0.Coords) :
    cc0_transform_2 k0_off1_inb numel1_S1 pf i = ![Cert.Spec.slabOf ((i 0).val * 64), 0, 0] := by
  have hw := word_group pf h0 i
  unfold cc0_transform_2
  exact congrArg (fun n => (![n, 0, 0] : Fin 3 → Nat)) hw

/-- and the result window is block (0, i, 0). -/
theorem map_result (pf : pre0.Contents (Elt F)) (h1 : ∀ j : S64.Idx, (pf 1 : S64.Idx → BitVec 32) j = lit1 (S64.rowMajor j)) (i : grid0.Coords) :
    cc0_transform_3 k0_off1_inb numel1_S1 pf i = ![0, (i 0).val, 0] := by
  have hw := word_offset pf h1 i
  unfold cc0_transform_3
  exact congrArg (fun n => (![0, n, 0] : Fin 3 → Nat)) hw

/-- Every block lies inside its array. -/
theorem ok_of_tables (pf : pre0.Contents (Elt F)) (h0 : ∀ j : S64.Idx, (pf 0 : S64.Idx → BitVec 32) j = lit0 (S64.rowMajor j))
    (h1 : ∀ j : S64.Idx, (pf 1 : S64.Idx → BitVec 32) j = lit1 (S64.rowMajor j)) : ok0 (F := F) pf := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [map_tokens pf h1 i]
    have hlt : (i 0).val < 64 := (i 0).isLt
    fin_cases a <;> simp [S16x64x512, S16x4096x512] <;> omega
  · rw [map_weights pf h0 i]
    have hlt := Cert.Spec.slabOf_lt ((i 0).val * 64)
    fin_cases a <;> simp [S1x512x512, S8x512x512] <;> omega
  · rw [map_bias pf h0 i]
    have hlt := Cert.Spec.slabOf_lt ((i 0).val * 64)
    fin_cases a <;> simp [S1x1x512, S8x1x512] <;> omega
  · rw [map_result pf h1 i]
    have hlt : (i 0).val < 64 := (i 0).isLt
    fin_cases a <;> simp [S16x64x512, S16x4096x512] <;> omega

/-- The launch's side condition holds at the tables the program writes, for every launch memory. -/
theorem ok : Ok (F := F) m := ok_of_tables (tbl m) (tbl_group m) (tbl_offset m)

end Cert.Kernel.Tables

end
-- ==== Proof.TablesIdeal.lean ====
/-
  The two tables the index maps read, and the index maps at them.

  The tables are constants of the program, written by two host operations before the launch: the first gives each
  of the 64 token tiles the number of the linear map its tokens go through (tiles 0–3 map 0, 4–11 map 1, 12–23
  map 2, 24–29 map 3, 30–39 map 4, 40–47 map 5, 48–56 map 6, 57–63 map 7), the second gives tile t the block
  offset t along the token axis. So at grid point t the token window and the result window sit at block
  (0, t, 0), and the weight and bias windows at block (g, 0, 0) with g the map of tile t, which is the map of
  token 64t. Every such block lies inside its array — tile t of 64 tokens inside the 4096, map g among the 8 —
  whatever the argument arrays hold, so the side condition of the launch holds with no assumption on the inputs.
-/
import proofs.«180724_j60215441490419_1_alg».proof.Proof.Gen.KernelIdeal.Frame
import proofs.«180724_j60215441490419_1_alg».proof.Proof.Spec
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## The tables' contents -/

/-- The first table holds the literal map numbers. -/
theorem tbl_group (i : S64.Idx) : (tbl m 0 : S64.Idx → BitVec 32) i = lit0 (S64.rowMajor i) := by
  have e : (tbl m 0 : S64.Idx → BitVec 32) = fun i => lit0 (S64.rowMajor i) := by
    unfold tbl
    show V m (0 : Dev nD) main_c = _
    unfold V
    simp only [hostOps0]
    after_results
    rfl
  rw [e]

/-- The second table holds the literal tile offsets. -/
theorem tbl_offset (i : S64.Idx) : (tbl m 1 : S64.Idx → BitVec 32) i = lit1 (S64.rowMajor i) := by
  have e : (tbl m 1 : S64.Idx → BitVec 32) = fun i => lit1 (S64.rowMajor i) := by
    unfold tbl
    show V m (0 : Dev nD) main_c_0 = _
    unfold V
    simp only [hostOps0]
    after_results
    rfl
  rw [e]

/-- Tile t's offset is t, and its map is the map of token 64t. -/
theorem lit1_val : ∀ n : Fin 64, (lit1 n).toNat = n.val := by decide
theorem lit0_val : ∀ n : Fin 64, (lit0 n).toNat = Cert.Spec.slabOf (n.val * 64) := by decide

/-! ## A word of a table -/

/-- The one element of a unit rectangle of a [64] table at offset n is element n. -/
theorem word_idx (off : Fin 1 → Nat) (n : Nat) (hoff : off 0 = n) (inb : ∀ a, off a + S1.size a ≤ S64.size a) (h1 : 0 < S1.numel) :
    (S64.rowMajor ((Rect.unit (s := S64) off S1.size inb).emb (Shape.Idx.first h1))).val = n := by
  rw [Shape.rowMajor_val_one]
  show off 0 + 1 * (Shape.Idx.first h1 (0 : Fin 1)).val = n
  have : (Shape.Idx.first h1 (0 : Fin 1)).val = 0 := by
    have := (Shape.Idx.first h1 (0 : Fin 1)).isLt
    have e : S1.size (0 : Fin 1) = 1 := by decide
    omega
  rw [this, hoff]; omega

/-- The offset an index map reads its table at is the grid coordinate. -/
theorem off_eq (i : grid0.Coords) : k0_off1 i 0 = (i 0).val := congrFun (k0_off1_eq i) 0

/-- The word of the offsets table an index map reads at grid coordinate i is i. -/
theorem word_offset (pf : pre0.Contents (Elt F)) (h1 : ∀ j : S64.Idx, (pf 1 : S64.Idx → BitVec 32) j = lit1 (S64.rowMajor j)) (i : grid0.Coords) :
    (pf.at 1 (Rect.unit (s := S64) (k0_off1 i) S1.size (k0_off1_inb i)) numel1_S1).toNat = (i 0).val := by
  have hn := word_idx (k0_off1 i) (i 0).val (off_eq i) (k0_off1_inb i) (numel1_S1.symm ▸ Nat.one_pos)
  have hlt : (i 0).val < 64 := (i 0).isLt
  refine (congrArg BitVec.toNat (h1 _)).trans ?_
  exact (congrArg (fun n : Fin 64 => (lit1 n).toNat) (Fin.ext hn : _ = (⟨(i 0).val, hlt⟩ : Fin 64))).trans (lit1_val _)

/-- The word of the maps table an index map reads at grid coordinate i is the map of token 64i. -/
theorem word_group (pf : pre0.Contents (Elt F)) (h0 : ∀ j : S64.Idx, (pf 0 : S64.Idx → BitVec 32) j = lit0 (S64.rowMajor j)) (i : grid0.Coords) :
    (pf.at 0 (Rect.unit (s := S64) (k0_off1 i) S1.size (k0_off1_inb i)) numel1_S1).toNat = Cert.Spec.slabOf ((i 0).val * 64) := by
  have hn := word_idx (k0_off1 i) (i 0).val (off_eq i) (k0_off1_inb i) (numel1_S1.symm ▸ Nat.one_pos)
  have hlt : (i 0).val < 64 := (i 0).isLt
  refine (congrArg BitVec.toNat (h0 _)).trans ?_
  exact (congrArg (fun n : Fin 64 => (lit0 n).toNat) (Fin.ext hn : _ = (⟨(i 0).val, hlt⟩ : Fin 64))).trans (lit0_val _)

/-! ## The index maps at the tables -/

/-- The token window at grid coordinate i is block (0, i, 0); -/
theorem map_tokens (pf : pre0.Contents (Elt F)) (h1 : ∀ j : S64.Idx, (pf 1 : S64.Idx → BitVec 32) j = lit1 (S64.rowMajor j)) (i : grid0.Coords) :
    cc0_transform_0 k0_off1_inb numel1_S1 pf i = ![0, (i 0).val, 0] := by
  have hw := word_offset pf h1 i
  unfold cc0_transform_0
  exact congrArg (fun n => (![0, n, 0] : Fin 3 → Nat)) hw

/-- the weight window is block (g, 0, 0), g the map of token 64i; -/
theorem map_weights (pf : pre0.Contents (Elt F)) (h0 : ∀ j : S64.Idx, (pf 0 : S64.Idx → BitVec 32) j = lit0 (S64.rowMajor j)) (i : grid0.Coords) :
    cc0_transform_1 k0_off1_inb numel1_S1 pf i = ![Cert.Spec.slabOf ((i 0).val * 64), 0, 0] := by
  have hw := word_group pf h0 i
  unfold cc0_transform_1
  exact congrArg (fun n => (![n, 0, 0] : Fin 3 → Nat)) hw

/-- the bias window likewise; -/
theorem map_bias (pf : pre0.Contents (Elt F)) (h0 : ∀ j : S64.Idx, (pf 0 : S64.Idx → BitVec 32) j = lit0 (S64.rowMajor j)) (i : grid0.Coords) :
    cc0_transform_2 k0_off1_inb numel1_S1 pf i = ![Cert.Spec.slabOf ((i 0).val * 64), 0, 0] := by
  have hw := word_group pf h0 i
  unfold cc0_transform_2
  exact congrArg (fun n => (![n, 0, 0] : Fin 3 → Nat)) hw

/-- and the result window is block (0, i, 0). -/
theorem map_result (pf : pre0.Contents (Elt F)) (h1 : ∀ j : S64.Idx, (pf 1 : S64.Idx → BitVec 32) j = lit1 (S64.rowMajor j)) (i : grid0.Coords) :
    cc0_transform_3 k0_off1_inb numel1_S1 pf i = ![0, (i 0).val, 0] := by
  have hw := word_offset pf h1 i
  unfold cc0_transform_3
  exact congrArg (fun n => (![0, n, 0] : Fin 3 → Nat)) hw

/-- Every block lies inside its array. -/
theorem ok_of_tables (pf : pre0.Contents (Elt F)) (h0 : ∀ j : S64.Idx, (pf 0 : S64.Idx → BitVec 32) j = lit0 (S64.rowMajor j))
    (h1 : ∀ j : S64.Idx, (pf 1 : S64.Idx → BitVec 32) j = lit1 (S64.rowMajor j)) : ok0 (F := F) pf := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [map_tokens pf h1 i]
    have hlt : (i 0).val < 64 := (i 0).isLt
    fin_cases a <;> simp [S16x64x512, S16x4096x512] <;> omega
  · rw [map_weights pf h0 i]
    have hlt := Cert.Spec.slabOf_lt ((i 0).val * 64)
    fin_cases a <;> simp [S1x512x512, S8x512x512] <;> omega
  · rw [map_bias pf h0 i]
    have hlt := Cert.Spec.slabOf_lt ((i 0).val * 64)
    fin_cases a <;> simp [S1x1x512, S8x1x512] <;> omega
  · rw [map_result pf h1 i]
    have hlt : (i 0).val < 64 := (i 0).isLt
    fin_cases a <;> simp [S16x64x512, S16x4096x512] <;> omega

/-- The launch's side condition holds at the tables the program writes, for every launch memory. -/
theorem ok : Ok (F := F) m := ok_of_tables (tbl m) (tbl_group m) (tbl_offset m)

end Cert.KernelIdeal.Tables

end
-- ==== Proof.KernelBlock.lean ====
/-
  What the kernel body stores, read at one entry, on the extended reals.

  The body loads a [16, 64, 512] block of tokens, one [1, 512, 512] weight matrix and one [1, 1, 512] bias row,
  flattens the tokens to a [1024, 512] matrix, multiplies it by the transposed weights into a zero accumulator,
  adds the bias to every row, and folds the rows back to [16, 64, 512]. Changes of float format are the identity
  on the extended reals, so entry (p, q, o) of what it stores is

      Σ_k tokens[p, q, k] · weights[0, o, k] + bias[0, 0, o].
-/
import proofs.«180724_j60215441490419_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-- Row p·64 + q of the flattened [1024, 512] token matrix. -/
def flat (p : Fin 16) (q : Fin 64) : Fin 1024 := ⟨p.val * 64 + q.val, by have := p.isLt; have := q.isLt; omega⟩

abbrev D := dot_S1024x512_S512x512_S1024x512_1_1_0_0_n_n

/-- The matrix product contracts the feature axis of both operands: entry (a, o) pairs (a, k) with (o, k). -/
theorem lhs_idx (a : Fin 1024) (o : Fin 512) (k : Fin 512) :
    D.lhsIdx (ix2 a o) ((contrEquiv1 D 512 rfl rfl).symm k) = ix2 a k := by
  have hk := contrEquiv1_symm_val D 512 rfl rfl k
  funext d
  apply Fin.ext
  match d with
  | ⟨0, _⟩ =>
    show (D.lhsIdx (ix2 a o) _ 0).val = a.val
    unfold DotDims.lhsIdx
    rw [dif_neg (show ¬(0 : Fin S1024x512.rank) ∈ D.lhsBatch by decide), dif_pos (show (0 : Fin S1024x512.rank) ∈ D.lhsNonContracting by decide)]
    rfl
  | ⟨1, _⟩ => exact (D.lhsIdx_val_of_single rfl (ix2 a o) _).trans hk

theorem rhs_idx (a : Fin 1024) (o : Fin 512) (k : Fin 512) :
    D.rhsIdx (ix2 a o) ((contrEquiv1 D 512 rfl rfl).symm k) = ix2 o k := by
  have hk := contrEquiv1_symm_val D 512 rfl rfl k
  funext d
  apply Fin.ext
  match d with
  | ⟨0, _⟩ =>
    show (D.rhsIdx (ix2 a o) _ 0).val = o.val
    unfold DotDims.rhsIdx
    rw [dif_neg (show ¬(0 : Fin S512x512.rank) ∈ D.rhsBatch by decide), dif_pos (show (0 : Fin S512x512.rank) ∈ D.rhsNonContracting by decide)]
    rfl
  | ⟨1, _⟩ => exact (D.rhsIdx_val_of_single rfl (ix2 a o) _).trans hk

/-- The flattened tokens at (p·64 + q, k) are the block's (p, q, k). -/
theorem tokens_flat (v : FVec Ideal S16x64x512 .bf16) (p : Fin 16) (q : Fin 64) (k : Fin 512) :
    shapeCast S1024x512 v shapeCasts_S16x64x512_S1024x512 (ix2 (flat p q) k) = v (ix3 p q k) :=
  shapeCast_apply v shapeCasts_S16x64x512_S1024x512 (ix2 (flat p q) k) (ix3 p q k) (by
    rewrite [Shape.rowMajor_val_three, Shape.rowMajor_val_two]
    show (p.val * 64 + q.val) * 512 + k.val = (p.val * 64 + q.val) * 512 + k.val
    rfl)

/-- The weight matrix with its unit leading axis dropped. -/
theorem weights_flat (v : Vec Ideal S1x512x512 .f32) (o k : Fin 512) :
    shapeCast S512x512 v shapeCasts_S1x512x512_S512x512 (ix2 o k) = v (ix3 0 o k) :=
  shapeCast_apply v shapeCasts_S1x512x512_S512x512 (ix2 o k) (ix3 0 o k) (by
    rewrite [Shape.rowMajor_val_three, Shape.rowMajor_val_two]
    show (0 * 512 + o.val) * 512 + k.val = o.val * 512 + k.val
    omega)

/-- The bias row spread over the 1024 rows. -/
theorem bias_row (v : Vec Ideal S1x1x512 .f32) (a : Fin 1024) (o : Fin 512) :
    broadcastTo S1024x512 (shapeCast S1x512 (shapeCast S512 v shapeCasts_S1x1x512_S512) shapeCasts_S512_S1x512) broadcasts_S1x512_S1024x512 (ix2 a o)
      = v (ix3 0 0 o) := by
  refine (broadcastTo_apply _ broadcasts_S1x512_S1024x512 (ix2 a o) (ix2 0 o) (fun d => ?_)).trans ?_
  · match d with
    | ⟨0, _⟩ => show 0 = if (1 : Nat) = 1 then 0 else _; rw [if_pos rfl]
    | ⟨1, _⟩ => show o.val = if (512 : Nat) = 1 then 0 else o.val; rw [if_neg (by decide)]
  refine (shapeCast_apply _ shapeCasts_S512_S1x512 (ix2 0 o) (ix1 o) (by
    rewrite [Shape.rowMajor_val_one, Shape.rowMajor_val_two]
    show o.val = 0 * 512 + o.val
    omega)).trans ?_
  exact shapeCast_apply v shapeCasts_S1x1x512_S512 (ix1 o) (ix3 0 0 o) (by
    rewrite [Shape.rowMajor_val_three, Shape.rowMajor_val_one]
    show (0 * 1 + 0) * 512 + o.val = o.val
    omega)

/-- Entry (p, q, o) of the stored block. -/
theorem stored_apply (v0 : Vec Ideal S16x64x512 .f32) (v3 : Vec Ideal S1x512x512 .f32) (v6 : Vec Ideal S1x1x512 .f32)
    (p : Fin 16) (q : Fin 64) (o : Fin 512) :
    k0_pay1 (F := Ideal) v0 v3 v6 (ix3 p q o) = (∑ k : Fin 512, v0 (ix3 p q k) * v3 (ix3 0 o k)) + v6 (ix3 0 0 o) := by
  unfold k0_pay1
  refine (shapeCast_apply _ shapeCasts_S1024x512_S16x64x512 (ix3 p q o) (ix2 (flat p q) o) (by
    rewrite [Shape.rowMajor_val_three, Shape.rowMajor_val_two]
    show (p.val * 64 + q.val) * 512 + o.val = (p.val * 64 + q.val) * 512 + o.val
    rfl)).trans ?_
  show FloatOps.matmul D none _ _ (constant (F := Ideal) S1024x512 .f32 0x00000000#32) (ix2 (flat p q) o) + _ = _
  refine congrArg₂ (· + ·) ?_ (bias_row v6 (flat p q) o)
  refine (Ideal.matmul_constant_zero_apply D none _ _ (ix2 (flat p q) o)).trans ?_
  rw [← Equiv.sum_comp (contrEquiv1 D 512 rfl rfl).symm]
  refine Finset.sum_congr rfl fun k _ => ?_
  rw [lhs_idx, rhs_idx]
  refine congrArg₂ (· * ·) ?_ ?_
  · exact tokens_flat _ p q k
  · exact weights_flat v3 o k

end Cert.KernelIdeal.Block

end
-- ==== Proof.KernelValue.lean ====
/-
  The idealized kernel's result array is the specification's function of the argument arrays.

  One grid point t (t = 0 … 63) handles token tile t: it is handed tokens 64t … 64t + 63 of every batch row, the
  weight matrix and bias row of the map g those tokens go through (one map per tile, since slab boundaries are
  multiples of 64), and writes back, as block (0, t, 0) of the result,

      block[p, q, o] = Σ_k x[p, 64t + q, k] · W[g, o, k] + b[g, o],

  which is the specification's entry (p, 64t + q, o). Consecutive points write different blocks, so every point
  writes its block back, and token r lies in the block of point r / 64: the 64 blocks cover the result array, which
  therefore ends holding the specification's function everywhere.
-/
import proofs.«180724_j60215441490419_1_alg».proof.Proof.TablesIdeal
import proofs.«180724_j60215441490419_1_alg».proof.Proof.KernelBlock
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Result

open Cert.KernelIdeal Cert.KernelIdeal.Gen Cert.KernelIdeal.Tables Cert.KernelIdeal.Block
open Idealize.ShloMosaic Idealize.ShloMosaic.TcCoe Idealize.ShloMosaic.Tactic Idealize.ShloMosaic.ValueIdx Idealize.SL.Sem
open Idealize.ShloMosaic.Pipeline (Dat)

/-! ## What the body leaves in the result's staging buffer -/

section Piece
variable {F : FTy → Type} [FloatOps F]

theorem hz3 : (![0, 0, 0] : Fin 3 → Nat) = fun _ => 0 := funext fun a => by fin_cases a <;> rfl

/-- The body's one store covers the whole staging buffer with its payload of the three loaded blocks. -/
theorem stored_eq (c : Dev nD) (i : grid0.Coords) (arg3 : Memref sig .tc .vmem S16x64x512 .f32) (harg3 : arg3.IsWhole) (arg4 : Memref sig .tc .vmem S1x512x512 .f32) (harg4 : arg4.IsWhole) (arg5 : Memref sig .tc .vmem S1x1x512 .f32) (harg5 : arg5.IsWhole) (arg6 : Memref sig .tc .vmem S16x64x512 .f32) (harg6 : arg6.IsWhole)
    (x0 : Vec F S16x64x512 .f32) (x1 : Vec F S1x512x512 .f32) (x2 : Vec F S1x1x512 .f32) (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  rw [View.canon_unit_zero hz3]
  simp only [View.readAt_eq_ld, harg3.read_unread, harg4.read_unread, harg5.read_unread,
    View.ld_unit_zero (S := S16x64x512) hz3, View.ld_unit_zero (S := S1x512x512) hz3, View.ld_unit_zero (S := S1x1x512) hz3]

end Piece

/-! ## Tiles and tokens -/

/-- Token q of tile t. -/
def tok (t q : Fin 64) : Fin 4096 := ⟨t.val * 64 + q.val, by have := t.isLt; have := q.isLt; omega⟩

/-- The map the tokens of tile t go through: that of its first token. -/
def tileGroup (t : Fin 64) : Fin 8 := ⟨Cert.Spec.slabOf (t.val * 64), Cert.Spec.slabOf_lt _⟩

theorem tokGroup_tok (t q : Fin 64) : Cert.Spec.tokGroup (tok t q) = tileGroup t :=
  Fin.ext (Cert.Spec.slabOf_tile t.val q.val q.isLt)

/-! ## The windows at the tables: where each block sits (the tables' contents a variable) -/

section Geometry
variable {F : FTy → Type} [FloatOps F]
variable (a : (pcfg0 (F := F)).Adm)

theorem N_eq : (cfg0 a).N = 64 := N_0

/-- The grid has one axis: point t has coordinate t. -/
theorem coord_val (t : Fin (cfg0 a).N) : ((cfg0 a).grid.coords t 0).val = t.val := by
  have hN := N_eq a
  have ht := t.isLt
  have hs : (cfg0 a).grid.stride 0 = 1 := (by decide : grid0.stride 0 = 1)
  show t.val / (cfg0 a).grid.stride 0 % 64 = t.val
  rw [hs]; omega

/-- Point t as a tile. -/
def tile (t : Fin (cfg0 a).N) : Fin 64 := ⟨t.val, by have := N_eq a; have := t.isLt; omega⟩

theorem index_tokens (h1 : ∀ j : S64.Idx, (a.1 1 : S64.Idx → BitVec 32) j = lit1 (S64.rowMajor j)) (t : Fin (cfg0 a).N) :
    ((cfg0 a).win 0).index t = ![0, t.val, 0] := by
  show cc0_transform_0 k0_off1_inb numel1_S1 a.1 ((cfg0 a).grid.coords t) = _
  rw [map_tokens a.1 h1, coord_val a t]

theorem index_weights (h0 : ∀ j : S64.Idx, (a.1 0 : S64.Idx → BitVec 32) j = lit0 (S64.rowMajor j)) (t : Fin (cfg0 a).N) :
    ((cfg0 a).win 1).index t = ![(tileGroup (tile a t)).val, 0, 0] := by
  show cc0_transform_1 k0_off1_inb numel1_S1 a.1 ((cfg0 a).grid.coords t) = _
  rw [map_weights a.1 h0, coord_val a t]
  rfl

theorem index_bias (h0 : ∀ j : S64.Idx, (a.1 0 : S64.Idx → BitVec 32) j = lit0 (S64.rowMajor j)) (t : Fin (cfg0 a).N) :
    ((cfg0 a).win 2).index t = ![(tileGroup (tile a t)).val, 0, 0] := by
  show cc0_transform_2 k0_off1_inb numel1_S1 a.1 ((cfg0 a).grid.coords t) = _
  rw [map_bias a.1 h0, coord_val a t]
  rfl

theorem index_result (h1 : ∀ j : S64.Idx, (a.1 1 : S64.Idx → BitVec 32) j = lit1 (S64.rowMajor j)) (t : Fin (cfg0 a).N) :
    ((cfg0 a).win 3).index t = ![0, t.val, 0] := by
  show cc0_transform_3 k0_off1_inb numel1_S1 a.1 ((cfg0 a).grid.coords t) = _
  rw [map_result a.1 h1, coord_val a t]

/-- The token block at point t, read at (p, q, k), is the array at (p, 64t + q, k). -/
theorem read_tokens (h1 : ∀ j : S64.Idx, (a.1 1 : S64.Idx → BitVec 32) j = lit1 (S64.rowMajor j))
    (X : S16x4096x512.Idx → Elt F .f32) (t : Fin (cfg0 a).N) (p : Fin 16) (q : Fin 64) (k : Fin 512) :
    (((cfg0 a).win 0).blk t).view.read (Elt F) X (ix3 p q k) = X (ix3 p (tok (tile a t) q) k) := by
  show X ((((cfg0 a).win 0).blk t).view.emb (ix3 p q k)) = _
  refine congrArg X (funext fun d => Fin.ext ?_)
  have hi := index_tokens a h1 t
  match d with
  | ⟨0, _⟩ =>
    have e : ((cfg0 a).win 0).index t (0 : Fin 3) = 0 := congrFun hi (0 : Fin 3)
    show ((cfg0 a).win 0).index t (0 : Fin 3) * 16 + 1 * p.val = p.val
    omega
  | ⟨1, _⟩ =>
    have e : ((cfg0 a).win 0).index t (1 : Fin 3) = t.val := congrFun hi (1 : Fin 3)
    show ((cfg0 a).win 0).index t (1 : Fin 3) * 64 + 1 * q.val = t.val * 64 + q.val
    omega
  | ⟨2, _⟩ =>
    have e : ((cfg0 a).win 0).index t (2 : Fin 3) = 0 := congrFun hi (2 : Fin 3)
    show ((cfg0 a).win 0).index t (2 : Fin 3) * 512 + 1 * k.val = k.val
    omega

/-- The weight block at point t is the matrix of the tile's map. -/
theorem read_weights (h0 : ∀ j : S64.Idx, (a.1 0 : S64.Idx → BitVec 32) j = lit0 (S64.rowMajor j))
    (X : S8x512x512.Idx → Elt F .f32) (t : Fin (cfg0 a).N) (o k : Fin 512) :
    (((cfg0 a).win 1).blk t).view.read (Elt F) X (ix3 0 o k) = X (ix3 (tileGroup (tile a t)) o k) := by
  show X ((((cfg0 a).win 1).blk t).view.emb (ix3 0 o k)) = _
  refine congrArg X (funext fun d => Fin.ext ?_)
  have hi := index_weights a h0 t
  match d with
  | ⟨0, _⟩ =>
    have e : ((cfg0 a).win 1).index t (0 : Fin 3) = (tileGroup (tile a t)).val := congrFun hi (0 : Fin 3)
    show ((cfg0 a).win 1).index t (0 : Fin 3) * 1 + 1 * 0 = (tileGroup (tile a t)).val
    omega
  | ⟨1, _⟩ =>
    have e : ((cfg0 a).win 1).index t (1 : Fin 3) = 0 := congrFun hi (1 : Fin 3)
    show ((cfg0 a).win 1).index t (1 : Fin 3) * 512 + 1 * o.val = o.val
    omega
  | ⟨2, _⟩ =>
    have e : ((cfg0 a).win 1).index t (2 : Fin 3) = 0 := congrFun hi (2 : Fin 3)
    show ((cfg0 a).win 1).index t (2 : Fin 3) * 512 + 1 * k.val = k.val
    omega

/-- The bias block at point t is the row of the tile's map. -/
theorem read_bias (h0 : ∀ j : S64.Idx, (a.1 0 : S64.Idx → BitVec 32) j = lit0 (S64.rowMajor j))
    (X : S8x1x512.Idx → Elt F .f32) (t : Fin (cfg0 a).N) (o : Fin 512) :
    (((cfg0 a).win 2).blk t).view.read (Elt F) X (ix3 0 0 o) = X (ix3 (tileGroup (tile a t)) 0 o) := by
  show X ((((cfg0 a).win 2).blk t).view.emb (ix3 0 0 o)) = _
  refine congrArg X (funext fun d => Fin.ext ?_)
  have hi := index_bias a h0 t
  match d with
  | ⟨0, _⟩ =>
    have e : ((cfg0 a).win 2).index t (0 : Fin 3) = (tileGroup (tile a t)).val := congrFun hi (0 : Fin 3)
    show ((cfg0 a).win 2).index t (0 : Fin 3) * 1 + 1 * 0 = (tileGroup (tile a t)).val
    omega
  | ⟨1, _⟩ =>
    have e : ((cfg0 a).win 2).index t (1 : Fin 3) = 0 := congrFun hi (1 : Fin 3)
    show ((cfg0 a).win 2).index t (1 : Fin 3) * 1 + 1 * 0 = 0
    omega
  | ⟨2, _⟩ =>
    have e : ((cfg0 a).win 2).index t (2 : Fin 3) = 0 := congrFun hi (2 : Fin 3)
    show ((cfg0 a).win 2).index t (2 : Fin 3) * 512 + 1 * o.val = o.val
    omega

/-- The result block at point t, read at (p, q, o), is the array at (p, 64t + q, o). -/
theorem read_result (h1 : ∀ j : S64.Idx, (a.1 1 : S64.Idx → BitVec 32) j = lit1 (S64.rowMajor j))
    (X : S16x4096x512.Idx → Elt F .f32) (t : Fin (cfg0 a).N) (p : Fin 16) (q : Fin 64) (o : Fin 512) :
    (((cfg0 a).win 3).blk t).view.read (Elt F) X (ix3 p q o) = X (ix3 p (tok (tile a t) q) o) := by
  show X ((((cfg0 a).win 3).blk t).view.emb (ix3 p q o)) = _
  refine congrArg X (funext fun d => Fin.ext ?_)
  have hi := index_result a h1 t
  match d with
  | ⟨0, _⟩ =>
    have e : ((cfg0 a).win 3).index t (0 : Fin 3) = 0 := congrFun hi (0 : Fin 3)
    show ((cfg0 a).win 3).index t (0 : Fin 3) * 16 + 1 * p.val = p.val
    omega
  | ⟨1, _⟩ =>
    have e : ((cfg0 a).win 3).index t (1 : Fin 3) = t.val := congrFun hi (1 : Fin 3)
    show ((cfg0 a).win 3).index t (1 : Fin 3) * 64 + 1 * q.val = t.val * 64 + q.val
    omega
  | ⟨2, _⟩ =>
    have e : ((cfg0 a).win 3).index t (2 : Fin 3) = 0 := congrFun hi (2 : Fin 3)
    show ((cfg0 a).win 3).index t (2 : Fin 3) * 512 + 1 * o.val = o.val
    omega

/-- Consecutive points write different blocks, so every point writes its block back. -/
theorem flush_result (h1 : ∀ j : S64.Idx, (a.1 1 : S64.Idx → BitVec 32) j = lit1 (S64.rowMajor j)) (t : Fin (cfg0 a).N) :
    ((cfg0 a).win 3).flush t = true := by
  unfold Pipeline.Window.flush
  rw [show ((cfg0 a).win 3).isOut = true from rfl, Bool.true_and, Bool.or_eq_true, decide_eq_true_eq, decide_eq_true_eq]
  by_cases h : t.val + 1 = (cfg0 a).grid.N
  · exact Or.inl h
  · have ht := t.isLt
    have hlt : t.val + 1 < (cfg0 a).grid.N := by
      have : t.val < (cfg0 a).grid.N := ht
      omega
    refine Or.inr ⟨hlt, fun e => ?_⟩
    have e1 := congrFun e (1 : Fin 3)
    rw [index_result a h1, index_result a h1] at e1
    have e2 : t.val + 1 = t.val := e1
    omega

/-- Token r lies in the block of point r / 64. -/
theorem mem_result (h1 : ∀ j : S64.Idx, (a.1 1 : S64.Idx → BitVec 32) j = lit1 (S64.rowMajor j)) (t : Fin (cfg0 a).N)
    (i : S16x4096x512.Idx) (hi : t.val * 64 ≤ (i 1).val ∧ (i 1).val < t.val * 64 + 64) :
    i ∈ (((cfg0 a).win 3).blk t).view.set := by
  show i ∈ ((View.whole main_v1).slice (((cfg0 a).win 3).rect t)).set
  refine (Finset.ext_iff.mp (View.set_slice_whole main_v1 (((cfg0 a).win 3).rect t)) i).mpr ?_
  refine Rect.mem_set_unit.mpr fun d => ?_
  have hx := index_result a h1 t
  match d with
  | ⟨0, _⟩ =>
    have e : ((cfg0 a).win 3).index t (0 : Fin 3) = 0 := congrFun hx (0 : Fin 3)
    have hb : (i 0).val < 16 := (i 0).isLt
    show ((cfg0 a).win 3).index t (0 : Fin 3) * 16 ≤ (i 0).val ∧ (i 0).val < ((cfg0 a).win 3).index t (0 : Fin 3) * 16 + 16
    omega
  | ⟨1, _⟩ =>
    have e : ((cfg0 a).win 3).index t (1 : Fin 3) = t.val := congrFun hx (1 : Fin 3)
    show ((cfg0 a).win 3).index t (1 : Fin 3) * 64 ≤ (i 1).val ∧ (i 1).val < ((cfg0 a).win 3).index t (1 : Fin 3) * 64 + 64
    omega
  | ⟨2, _⟩ =>
    have e : ((cfg0 a).win 3).index t (2 : Fin 3) = 0 := congrFun hx (2 : Fin 3)
    have hb : (i 2).val < 512 := (i 2).isLt
    show ((cfg0 a).win 3).index t (2 : Fin 3) * 512 ≤ (i 2).val ∧ (i 2).val < ((cfg0 a).win 3).index t (2 : Fin 3) * 512 + 512
    omega

theorem cover_result (h1 : ∀ j : S64.Idx, (a.1 1 : S64.Idx → BitVec 32) j = lit1 (S64.rowMajor j)) (i : S16x4096x512.Idx) :
    ∃ t : Fin (cfg0 a).N, ((cfg0 a).win 3).flush t = true ∧ i ∈ (((cfg0 a).win 3).blk t).view.set := by
  have hr : (i 1).val < 4096 := (i 1).isLt
  have hN := N_eq a
  refine ⟨⟨(i 1).val / 64, by omega⟩, flush_result a h1 _, mem_result a h1 _ i ?_⟩
  show (i 1).val / 64 * 64 ≤ (i 1).val ∧ (i 1).val < (i 1).val / 64 * 64 + 64
  omega

end Geometry

/-! ## One grid point's block is the specification's -/

/-- What point t writes back — the body's payload of its three blocks — is block t of the specification's function
    of the arrays the launch finds (the bias array with its unit middle axis: `b3 (g, 0, o) = b (g, o)`). -/
theorem point_value (a : (pcfg0 (F := Ideal)).Adm)
    (h0 : ∀ j : S64.Idx, (a.1 0 : S64.Idx → BitVec 32) j = lit0 (S64.rowMajor j))
    (h1 : ∀ j : S64.Idx, (a.1 1 : S64.Idx → BitVec 32) j = lit1 (S64.rowMajor j))
    (x : S16x4096x512.Idx → EReal) (W : S8x512x512.Idx → EReal) (b3 : S8x1x512.Idx → EReal) (b : S8x512.Idx → EReal)
    (hb : ∀ (g : Fin 8) (o : Fin 512), b3 (ix3 g 0 o) = b (ix2 g o))
    (t : Fin (cfg0 a).N) :
    ((cfg0 a).win 3).cut ((cfg0 a).grid.coords t)
        (k0_pay1 (F := Ideal) ((((cfg0 a).win 0).blk t).view.read (Elt Ideal) x) ((((cfg0 a).win 1).blk t).view.read (Elt Ideal) W)
          ((((cfg0 a).win 2).blk t).view.read (Elt Ideal) b3))
      = (((cfg0 a).win 3).blk t).view.read (Elt Ideal) (Cert.Spec.G x W b) := by
  funext y
  have hp : (y (0 : Fin 3)).val < 16 := (y (0 : Fin 3)).isLt
  have hq : (y (1 : Fin 3)).val < 64 := (y (1 : Fin 3)).isLt
  have ho : (y (2 : Fin 3)).val < 512 := (y (2 : Fin 3)).isLt
  obtain ⟨p, q, o, rfl⟩ : ∃ (p : Fin 16) (q : Fin 64) (o : Fin 512), y = ix3 p q o :=
    ⟨⟨_, hp⟩, ⟨_, hq⟩, ⟨_, ho⟩, funext fun d => by match d with | ⟨0, _⟩ => rfl | ⟨1, _⟩ => rfl | ⟨2, _⟩ => rfl⟩
  show k0_pay1 (F := Ideal) _ _ _ (ix3 p q o) = _
  refine (stored_apply ((((cfg0 a).win 0).blk t).view.read (Elt Ideal) x) ((((cfg0 a).win 1).blk t).view.read (Elt Ideal) W)
    ((((cfg0 a).win 2).blk t).view.read (Elt Ideal) b3) p q o).trans ?_
  refine Eq.trans ?_ (read_result a h1 (Cert.Spec.G x W b) t p q o).symm
  rw [Cert.Spec.G_apply]
  unfold Cert.Spec.entry
  rw [tokGroup_tok]
  refine congrArg₂ (· + ·) (Finset.sum_congr rfl fun k _ => congrArg₂ (· * ·) ?_ ?_) ?_
  · exact read_tokens a h1 x t p q k
  · exact read_weights a h0 W t o k
  · exact (read_bias a h0 b3 t o).trans (hb _ o)

/-! ## The run -/

section Run
variable (m : (ℓ : Loc nD τ sig) → Buf (Elt Ideal) ℓ) (ρ : Dev nD → PrngReg)

/-- The bias array the launch finds is the bias argument with a unit middle axis. -/
theorem V_bias (c : Dev nD) : (V m c main_v0 : S8x1x512.Idx → EReal)
    = shapeCast S8x1x512 (m ((c : Thread nD τ).loc main_arg2)) shapeCasts_S8x512_S8x1x512 := by
  unfold V
  simp only [hostOps0]
  after_results
  rfl

theorem bias_apply (b : S8x512.Idx → EReal) (g : Fin 8) (o : Fin 512) :
    shapeCast S8x1x512 b shapeCasts_S8x512_S8x1x512 (ix3 g 0 o) = b (ix2 g o) :=
  shapeCast_apply b shapeCasts_S8x512_S8x1x512 (ix3 g 0 o) (ix2 g o) (by
    rewrite [Shape.rowMajor_val_two, Shape.rowMajor_val_three]
    show g.val * 512 + o.val = (g.val * 1 + 0) * 512 + o.val
    omega)

/-- The specification's function of the argument arrays as the launch finds them. -/
abbrev found (c : Dev nD) : Buf (Elt Ideal) ((c : Thread nD τ).loc main_v1) :=
  Cert.Spec.G (V m c main_arg0) (V m c main_arg1) (m ((c : Thread nD τ).loc main_arg2))

/-- The specification's function of the argument arrays. -/
abbrev result (c : Dev nD) : Buf (Elt Ideal) ((c : Thread nD τ).loc main_v1) :=
  Cert.Spec.G (m ((c : Thread nD τ).loc main_arg0)) (m ((c : Thread nD τ).loc main_arg1)) (m ((c : Thread nD τ).loc main_arg2))

theorem found_eq (c : Dev nD) : found m c = result m c := by
  show Cert.Spec.G (V m c main_arg0) (V m c main_arg1) _ = Cert.Spec.G _ _ _
  rw [V_main_arg0, V_main_arg1]

/-- What point t writes back is block t of the specification's function. -/
theorem flushed_eq (hO : Ok m) (c : Dev nD) (t : Fin (cfgM m hO).N) (_ : ((cfgM m hO).win 3).flush t = true) :
    (dats m hO 0 c).flushed 3 t = (((cfgM m hO).win 3).blk t).view.read (Elt Ideal) (found m c) := by
  show ((cfgM m hO).win 3).cut ((cfgM m hO).grid.coords t) ((dats m hO 0 c).after 3 t) = _
  rw [after0_3]
  unfold outsAt0
  rw [stored_eq (F := Ideal) c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0) (tbl m 1)]
  exact point_value (adm m hO) (tbl_group m) (tbl_offset m) (V m c main_arg0) (V m c main_arg1) (V m c main_v0)
    (m ((c : Thread nD τ).loc main_arg2)) (fun g o => by rw [V_bias]; exact bias_apply _ g o) t

/-- So the result array ends holding the specification's function of the argument arrays. -/
theorem final (hO : Ok m) (c : Dev nD) : (dats m hO 0 c).arrAt 3 (cfgM m hO).N = result m c :=
  ((dats m hO 0 c).arrAt_eq_of_cover 3 (found m c) (flushed_eq m hO c) (cover_result (adm m hO) (tbl_offset m))).trans (found_eq m c)

/-- The kernel's run with its result named: every weakly fair execution ends with the result array at the
    specification's function of the argument arrays, and the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).1 3).trans (final m (ok m) c),
        ((h c).1 0).trans (((dats m (ok m) 0 c).arrAt_in 0 rfl _).trans ((A_eq m (ok m) c 0).trans (V_main_arg0 m c))),
        ((h c).1 1).trans (((dats m (ok m) 0 c).arrAt_in 1 rfl _).trans ((A_eq m (ok m) c 1).trans (V_main_arg1 m c))),
        ((h c).2 main_arg2 (by decide : main_arg2 ∈ Pipeline.restRefs sig spec0)).trans (V_main_arg2 m c)⟩)
    (run_main m ρ (ok m))

end Run

end Cert.KernelIdeal.Result

end
-- ==== Proof.RefValue.lean ====
/-
  The idealized reference computes the specification's function.

  The reference cuts the token axis into the eight slabs, and for each slab g takes that slab of x, the weight
  matrix W[g] and the bias row b[g], forms the product of the slab with W[g] transposed (a sum over the feature
  axis), adds b[g] to every row, and joins the eight results along the token axis. Read at (p, r, o): token r lies in
  exactly one slab g, the joined array reads that slab's result at token r − (start of slab g), and that entry is
  Σ_k x[p, r, k] · W[g, o, k] + b[g, o] — the specification's entry, g being the map of token r.
-/
import proofs.«180724_j60215441490419_1_alg».proof.Proof.Gen.ReferenceIdeal.Read
import proofs.«180724_j60215441490419_1_alg».proof.Proof.Spec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## One slab: its product plus its bias, read at an entry -/

/-- Slab 0 (tokens 0 … 255, map 0): entry (p, s, o) of its part of the result. -/
theorem slab0 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 256) (o : Fin 512) (r : Fin 4096) (hr : r.val = 0 + s.val) :
    val_main_v8 (F := Ideal) x0 x1 x2 (ix3 p s o)
      = (∑ k : Fin 512, x0 (ix3 p r k) * x1 (ix3 (0 : Fin 8) o k)) + x2 (ix2 (0 : Fin 8) o) := by
  rw [val_main_v8_apply, val_main_v3_apply, val_main_v7_apply, val_main_v6_apply, val_main_v5_apply, val_main_v4_apply]
  have ho := o.isLt
  refine congrArg₂ (· + ·) (Finset.sum_congr rfl fun k _ => ?_) (congrArg x2 (funext fun d => Fin.ext ?_))
  · rw [val_main_v0_apply, val_main_v2_apply, val_main_v1_apply]
    have hk := k.isLt
    refine congrArg₂ (· * ·) (congrArg x0 (funext fun d => Fin.ext ?_)) (congrArg x1 (funext fun d => Fin.ext ?_))
    · match d with
      | ⟨0, _⟩ => rfl
      | ⟨1, _⟩ => show s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 1 (tokens 256 … 767, map 1): entry (p, s, o) of its part of the result. -/
theorem slab1 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 512) (o : Fin 512) (r : Fin 4096) (hr : r.val = 256 + s.val) :
    val_main_v17 (F := Ideal) x0 x1 x2 (ix3 p s o)
      = (∑ k : Fin 512, x0 (ix3 p r k) * x1 (ix3 (1 : Fin 8) o k)) + x2 (ix2 (1 : Fin 8) o) := by
  rw [val_main_v17_apply, val_main_v12_apply, val_main_v16_apply, val_main_v15_apply, val_main_v14_apply, val_main_v13_apply]
  have ho := o.isLt
  refine congrArg₂ (· + ·) (Finset.sum_congr rfl fun k _ => ?_) (congrArg x2 (funext fun d => Fin.ext ?_))
  · rw [val_main_v9_apply, val_main_v11_apply, val_main_v10_apply]
    have hk := k.isLt
    refine congrArg₂ (· * ·) (congrArg x0 (funext fun d => Fin.ext ?_)) (congrArg x1 (funext fun d => Fin.ext ?_))
    · match d with
      | ⟨0, _⟩ => rfl
      | ⟨1, _⟩ => show 256 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 2 (tokens 768 … 1535, map 2): entry (p, s, o) of its part of the result. -/
theorem slab2 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 768) (o : Fin 512) (r : Fin 4096) (hr : r.val = 768 + s.val) :
    val_main_v26 (F := Ideal) x0 x1 x2 (ix3 p s o)
      = (∑ k : Fin 512, x0 (ix3 p r k) * x1 (ix3 (2 : Fin 8) o k)) + x2 (ix2 (2 : Fin 8) o) := by
  rw [val_main_v26_apply, val_main_v21_apply, val_main_v25_apply, val_main_v24_apply, val_main_v23_apply, val_main_v22_apply]
  have ho := o.isLt
  refine congrArg₂ (· + ·) (Finset.sum_congr rfl fun k _ => ?_) (congrArg x2 (funext fun d => Fin.ext ?_))
  · rw [val_main_v18_apply, val_main_v20_apply, val_main_v19_apply]
    have hk := k.isLt
    refine congrArg₂ (· * ·) (congrArg x0 (funext fun d => Fin.ext ?_)) (congrArg x1 (funext fun d => Fin.ext ?_))
    · match d with
      | ⟨0, _⟩ => rfl
      | ⟨1, _⟩ => show 768 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 3 (tokens 1536 … 1919, map 3): entry (p, s, o) of its part of the result. -/
theorem slab3 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 384) (o : Fin 512) (r : Fin 4096) (hr : r.val = 1536 + s.val) :
    val_main_v35 (F := Ideal) x0 x1 x2 (ix3 p s o)
      = (∑ k : Fin 512, x0 (ix3 p r k) * x1 (ix3 (3 : Fin 8) o k)) + x2 (ix2 (3 : Fin 8) o) := by
  rw [val_main_v35_apply, val_main_v30_apply, val_main_v34_apply, val_main_v33_apply, val_main_v32_apply, val_main_v31_apply]
  have ho := o.isLt
  refine congrArg₂ (· + ·) (Finset.sum_congr rfl fun k _ => ?_) (congrArg x2 (funext fun d => Fin.ext ?_))
  · rw [val_main_v27_apply, val_main_v29_apply, val_main_v28_apply]
    have hk := k.isLt
    refine congrArg₂ (· * ·) (congrArg x0 (funext fun d => Fin.ext ?_)) (congrArg x1 (funext fun d => Fin.ext ?_))
    · match d with
      | ⟨0, _⟩ => rfl
      | ⟨1, _⟩ => show 1536 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 4 (tokens 1920 … 2559, map 4): entry (p, s, o) of its part of the result. -/
theorem slab4 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 640) (o : Fin 512) (r : Fin 4096) (hr : r.val = 1920 + s.val) :
    val_main_v44 (F := Ideal) x0 x1 x2 (ix3 p s o)
      = (∑ k : Fin 512, x0 (ix3 p r k) * x1 (ix3 (4 : Fin 8) o k)) + x2 (ix2 (4 : Fin 8) o) := by
  rw [val_main_v44_apply, val_main_v39_apply, val_main_v43_apply, val_main_v42_apply, val_main_v41_apply, val_main_v40_apply]
  have ho := o.isLt
  refine congrArg₂ (· + ·) (Finset.sum_congr rfl fun k _ => ?_) (congrArg x2 (funext fun d => Fin.ext ?_))
  · rw [val_main_v36_apply, val_main_v38_apply, val_main_v37_apply]
    have hk := k.isLt
    refine congrArg₂ (· * ·) (congrArg x0 (funext fun d => Fin.ext ?_)) (congrArg x1 (funext fun d => Fin.ext ?_))
    · match d with
      | ⟨0, _⟩ => rfl
      | ⟨1, _⟩ => show 1920 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 5 (tokens 2560 … 3071, map 5): entry (p, s, o) of its part of the result. -/
theorem slab5 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 512) (o : Fin 512) (r : Fin 4096) (hr : r.val = 2560 + s.val) :
    val_main_v53 (F := Ideal) x0 x1 x2 (ix3 p s o)
      = (∑ k : Fin 512, x0 (ix3 p r k) * x1 (ix3 (5 : Fin 8) o k)) + x2 (ix2 (5 : Fin 8) o) := by
  rw [val_main_v53_apply, val_main_v48_apply, val_main_v52_apply, val_main_v51_apply, val_main_v50_apply, val_main_v49_apply]
  have ho := o.isLt
  refine congrArg₂ (· + ·) (Finset.sum_congr rfl fun k _ => ?_) (congrArg x2 (funext fun d => Fin.ext ?_))
  · rw [val_main_v45_apply, val_main_v47_apply, val_main_v46_apply]
    have hk := k.isLt
    refine congrArg₂ (· * ·) (congrArg x0 (funext fun d => Fin.ext ?_)) (congrArg x1 (funext fun d => Fin.ext ?_))
    · match d with
      | ⟨0, _⟩ => rfl
      | ⟨1, _⟩ => show 2560 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 6 (tokens 3072 … 3647, map 6): entry (p, s, o) of its part of the result. -/
theorem slab6 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 576) (o : Fin 512) (r : Fin 4096) (hr : r.val = 3072 + s.val) :
    val_main_v62 (F := Ideal) x0 x1 x2 (ix3 p s o)
      = (∑ k : Fin 512, x0 (ix3 p r k) * x1 (ix3 (6 : Fin 8) o k)) + x2 (ix2 (6 : Fin 8) o) := by
  rw [val_main_v62_apply, val_main_v57_apply, val_main_v61_apply, val_main_v60_apply, val_main_v59_apply, val_main_v58_apply]
  have ho := o.isLt
  refine congrArg₂ (· + ·) (Finset.sum_congr rfl fun k _ => ?_) (congrArg x2 (funext fun d => Fin.ext ?_))
  · rw [val_main_v54_apply, val_main_v56_apply, val_main_v55_apply]
    have hk := k.isLt
    refine congrArg₂ (· * ·) (congrArg x0 (funext fun d => Fin.ext ?_)) (congrArg x1 (funext fun d => Fin.ext ?_))
    · match d with
      | ⟨0, _⟩ => rfl
      | ⟨1, _⟩ => show 3072 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-- Slab 7 (tokens 3648 … 4095, map 7): entry (p, s, o) of its part of the result. -/
theorem slab7 (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (s : Fin 448) (o : Fin 512) (r : Fin 4096) (hr : r.val = 3648 + s.val) :
    val_main_v71 (F := Ideal) x0 x1 x2 (ix3 p s o)
      = (∑ k : Fin 512, x0 (ix3 p r k) * x1 (ix3 (7 : Fin 8) o k)) + x2 (ix2 (7 : Fin 8) o) := by
  rw [val_main_v71_apply, val_main_v66_apply, val_main_v70_apply, val_main_v69_apply, val_main_v68_apply, val_main_v67_apply]
  have ho := o.isLt
  refine congrArg₂ (· + ·) (Finset.sum_congr rfl fun k _ => ?_) (congrArg x2 (funext fun d => Fin.ext ?_))
  · rw [val_main_v63_apply, val_main_v65_apply, val_main_v64_apply]
    have hk := k.isLt
    refine congrArg₂ (· * ·) (congrArg x0 (funext fun d => Fin.ext ?_)) (congrArg x1 (funext fun d => Fin.ext ?_))
    · match d with
      | ⟨0, _⟩ => rfl
      | ⟨1, _⟩ => show 3648 + s.val = r.val; omega
      | ⟨2, _⟩ => rfl
    · match d with
      | ⟨0, _⟩ => rfl
      | ⟨1, _⟩ => show (o.val * 512 + k.val) / 512 % 512 = o.val; omega
      | ⟨2, _⟩ => show (o.val * 512 + k.val) % 512 = k.val; omega
  · match d with
    | ⟨0, _⟩ => rfl
    | ⟨1, _⟩ => show o.val % 512 = o.val; omega

/-! ## The eight slabs joined along the token axis -/

/-- Entry (p, r, o) of the reference's result is the specification's. -/
theorem ref_entry (x0 : (⟨S16x4096x512, .f32⟩ : BufTy).Contents (Elt Ideal)) (x1 : (⟨S8x512x512, .f32⟩ : BufTy).Contents (Elt Ideal)) (x2 : (⟨S8x512, .f32⟩ : BufTy).Contents (Elt Ideal))
    (p : Fin 16) (r : Fin 4096) (o : Fin 512) :
    val_main_v72 (F := Ideal) x0 x1 x2 (ix3 p r o) = Cert.Spec.entry x0 x1 x2 p r o := by
  unfold val_main_v72
  have hr := r.isLt
  rcases (by omega : (0 ≤ r.val ∧ r.val < 256) ∨ (256 ≤ r.val ∧ r.val < 768) ∨ (768 ≤ r.val ∧ r.val < 1536) ∨ (1536 ≤ r.val ∧ r.val < 1920)
      ∨ (1920 ≤ r.val ∧ r.val < 2560) ∨ (2560 ≤ r.val ∧ r.val < 3072) ∨ (3072 ≤ r.val ∧ r.val < 3648) ∨ (3648 ≤ r.val ∧ r.val < 4096))
    with h | h | h | h | h | h | h | h
  · -- tokens 0 … 255: piece 0 of the concatenation, at token r − 0 of the slab
    obtain ⟨h0, h1⟩ := h
    have hs : r.val - 0 < 256 := by omega
    refine (concatenate_apply_piece (1 : Fin 3) _ _ (ix3 p r o) 0 (by show 0 < 8; omega) S16x256x512 (val_main_v8 (F := Ideal) x0 x1 x2) rfl rfl 0 rfl
      (ix3 p ⟨r.val - 0, hs⟩ o) (fun b hb => ?_) ?_).trans ?_
    · match b with
      | ⟨0, _⟩ => rfl
      | ⟨1, _⟩ => exact absurd rfl hb
      | ⟨2, _⟩ => rfl
    · show 0 + (r.val - 0) = r.val; omega
    · refine (slab0 x0 x1 x2 p ⟨r.val - 0, hs⟩ o r (by show r.val = 0 + (r.val - 0); omega)).trans ?_
      unfold Cert.Spec.entry
      rw [Cert.Spec.tokGroup_of_bounds r (0 : Fin 8) 0 256 (by decide) h0 h1]
  · -- tokens 256 … 767: piece 1 of the concatenation, at token r − 256 of the slab
    obtain ⟨h0, h1⟩ := h
    have hs : r.val - 256 < 512 := by omega
    refine (concatenate_apply_piece (1 : Fin 3) _ _ (ix3 p r o) 1 (by show 1 < 8; omega) S16x512x512 (val_main_v17 (F := Ideal) x0 x1 x2) rfl rfl 256 rfl
      (ix3 p ⟨r.val - 256, hs⟩ o) (fun b hb => ?_) ?_).trans ?_
    · match b with
      | ⟨0, _⟩ => rfl
      | ⟨1, _⟩ => exact absurd rfl hb
      | ⟨2, _⟩ => rfl
    · show 256 + (r.val - 256) = r.val; omega
    · refine (slab1 x0 x1 x2 p ⟨r.val - 256, hs⟩ o r (by show r.val = 256 + (r.val - 256); omega)).trans ?_
      unfold Cert.Spec.entry
      rw [Cert.Spec.tokGroup_of_bounds r (1 : Fin 8) 256 768 (by decide) h0 h1]
  · -- tokens 768 … 1535: piece 2 of the concatenation, at token r − 768 of the slab
    obtain ⟨h0, h1⟩ := h
    have hs : r.val - 768 < 768 := by omega
    refine (concatenate_apply_piece (1 : Fin 3) _ _ (ix3 p r o) 2 (by show 2 < 8; omega) S16x768x512 (val_main_v26 (F := Ideal) x0 x1 x2) rfl rfl 768 rfl
      (ix3 p ⟨r.val - 768, hs⟩ o) (fun b hb => ?_) ?_).trans ?_
    · match b with
      | ⟨0, _⟩ => rfl
      | ⟨1, _⟩ => exact absurd rfl hb
      | ⟨2, _⟩ => rfl
    · show 768 + (r.val - 768) = r.val; omega
    · refine (slab2 x0 x1 x2 p ⟨r.val - 768, hs⟩ o r (by show r.val = 768 + (r.val - 768); omega)).trans ?_
      unfold Cert.Spec.entry
      rw [Cert.Spec.tokGroup_of_bounds r (2 : Fin 8) 768 1536 (by decide) h0 h1]
  · -- tokens 1536 … 1919: piece 3 of the concatenation, at token r − 1536 of the slab
    obtain ⟨h0, h1⟩ := h
    have hs : r.val - 1536 < 384 := by omega
    refine (concatenate_apply_piece (1 : Fin 3) _ _ (ix3 p r o) 3 (by show 3 < 8; omega) S16x384x512 (val_main_v35 (F := Ideal) x0 x1 x2) rfl rfl 1536 rfl
      (ix3 p ⟨r.val - 1536, hs⟩ o) (fun b hb => ?_) ?_).trans ?_
    · match b with
      | ⟨0, _⟩ => rfl
      | ⟨1, _⟩ => exact absurd rfl hb
      | ⟨2, _⟩ => rfl
    · show 1536 + (r.val - 1536) = r.val; omega
    · refine (slab3 x0 x1 x2 p ⟨r.val - 1536, hs⟩ o r (by show r.val = 1536 + (r.val - 1536); omega)).trans ?_
      unfold Cert.Spec.entry
      rw [Cert.Spec.tokGroup_of_bounds r (3 : Fin 8) 1536 1920 (by decide) h0 h1]
  · -- tokens 1920 … 2559: piece 4 of the concatenation, at token r − 1920 of the slab
    obtain ⟨h0, h1⟩ := h
    have hs : r.val - 1920 < 640 := by omega
    refine (concatenate_apply_piece (1 : Fin 3) _ _ (ix3 p r o) 4 (by show 4 < 8; omega) S16x640x512 (val_main_v44 (F := Ideal) x0 x1 x2) rfl rfl 1920 rfl
      (ix3 p ⟨r.val - 1920, hs⟩ o) (fun b hb => ?_) ?_).trans ?_
    · match b with
      | ⟨0, _⟩ => rfl
      | ⟨1, _⟩ => exact absurd rfl hb
      | ⟨2, _⟩ => rfl
    · show 1920 + (r.val - 1920) = r.val; omega
    · refine (slab4 x0 x1 x2 p ⟨r.val - 1920, hs⟩ o r (by show r.val = 1920 + (r.val - 1920); omega)).trans ?_
      unfold Cert.Spec.entry
      rw [Cert.Spec.tokGroup_of_bounds r (4 : Fin 8) 1920 2560 (by decide) h0 h1]
  · -- tokens 2560 … 3071: piece 5 of the concatenation, at token r − 2560 of the slab
    obtain ⟨h0, h1⟩ := h
    have hs : r.val - 2560 < 512 := by omega
    refine (concatenate_apply_piece (1 : Fin 3) _ _ (ix3 p r o) 5 (by show 5 < 8; omega) S16x512x512 (val_main_v53 (F := Ideal) x0 x1 x2) rfl rfl 2560 rfl
      (ix3 p ⟨r.val - 2560, hs⟩ o) (fun b hb => ?_) ?_).trans ?_
    · match b with
      | ⟨0, _⟩ => rfl
      | ⟨1, _⟩ => exact absurd rfl hb
      | ⟨2, _⟩ => rfl
    · show 2560 + (r.val - 2560) = r.val; omega
    · refine (slab5 x0 x1 x2 p ⟨r.val - 2560, hs⟩ o r (by show r.val = 2560 + (r.val - 2560); omega)).trans ?_
      unfold Cert.Spec.entry
      rw [Cert.Spec.tokGroup_of_bounds r (5 : Fin 8) 2560 3072 (by decide) h0 h1]
  · -- tokens 3072 … 3647: piece 6 of the concatenation, at token r − 3072 of the slab
    obtain ⟨h0, h1⟩ := h
    have hs : r.val - 3072 < 576 := by omega
    refine (concatenate_apply_piece (1 : Fin 3) _ _ (ix3 p r o) 6 (by show 6 < 8; omega) S16x576x512 (val_main_v62 (F := Ideal) x0 x1 x2) rfl rfl 3072 rfl
      (ix3 p ⟨r.val - 3072, hs⟩ o) (fun b hb => ?_) ?_).trans ?_
    · match b with
      | ⟨0, _⟩ => rfl
      | ⟨1, _⟩ => exact absurd rfl hb
      | ⟨2, _⟩ => rfl
    · show 3072 + (r.val - 3072) = r.val; omega
    · refine (slab6 x0 x1 x2 p ⟨r.val - 3072, hs⟩ o r (by show r.val = 3072 + (r.val - 3072); omega)).trans ?_
      unfold Cert.Spec.entry
      rw [Cert.Spec.tokGroup_of_bounds r (6 : Fin 8) 3072 3648 (by decide) h0 h1]
  · -- tokens 3648 … 4095: piece 7 of the concatenation, at token r − 3648 of the slab
    obtain ⟨h0, h1⟩ := h
    have hs : r.val - 3648 < 448 := by omega
    refine (concatenate_apply_piece (1 : Fin 3) _ _ (ix3 p r o) 7 (by show 7 < 8; omega) S16x448x512 (val_main_v71 (F := Ideal) x0 x1 x2) rfl rfl 3648 rfl
      (ix3 p ⟨r.val - 3648, hs⟩ o) (fun b hb => ?_) ?_).trans ?_
    · match b with
      | ⟨0, _⟩ => rfl
      | ⟨1, _⟩ => exact absurd rfl hb
      | ⟨2, _⟩ => rfl
    · show 3648 + (r.val - 3648) = r.val; omega
    · refine (slab7 x0 x1 x2 p ⟨r.val - 3648, hs⟩ o r (by show r.val = 3648 + (r.val - 3648); omega)).trans ?_
      unfold Cert.Spec.entry
      rw [Cert.Spec.tokGroup_of_bounds r (7 : Fin 8) 3648 4096 (by decide) h0 h1]

/-- The reference's result array is the specification's function of the argument arrays. -/
theorem ref_eq (x0 : (⟨S16x4096x512, .f32⟩ : BufTy).Contents (Elt Ideal)) (x1 : (⟨S8x512x512, .f32⟩ : BufTy).Contents (Elt Ideal)) (x2 : (⟨S8x512, .f32⟩ : BufTy).Contents (Elt Ideal)) :
    val_main_v72 (F := Ideal) x0 x1 x2 = Cert.Spec.G x0 x1 x2 :=
  funext fun i => (congrArg (val_main_v72 (F := Ideal) x0 x1 x2) (eq_ix3 i)).trans (ref_entry x0 x1 x2 (i 0) (i 1) (i 2))

end Cert.ReferenceIdeal.RefValue

end
-- ==== Proof.lean ====
/-
  Eight linear maps over eight slabs of tokens: the kernel against its jnp reference, on the extended reals.

  Both programs take x : f32[16, 4096, 512], W : f32[8, 512, 512] and b : f32[8, 512] and return

      out[p, r, o] = Σ_k x[p, r, k] · W[g(r), o, k] + b[g(r), o],

  g(r) the slab of the token axis that token r lies in (slab ends 256, 768, 1536, 1920, 2560, 3072, 3648, 4096).
  The kernel walks the token axis in 64 tiles of 64 tokens; two constant tables tell each tile where its tokens sit
  and which map they go through, and since every slab end is a multiple of 64 a tile never straddles two slabs. Its
  body rounds the tokens and the weights to bf16 before multiplying, which on the extended reals is the identity.
  The reference slices the eight slabs, multiplies each by its own weight matrix, adds its bias and joins the results.

  * The three frames. Both kernel programs run to the end for every launch memory: the one side condition of the
    launch — every block the tables name lies inside its array — is a fact about the constant tables, not about the
    inputs. The reference is a straight line of host operations.
  * The idealized kernel is the kernel's own text read on the extended reals: nothing was rewritten.
  * The two idealized programs end with equal results: each is the function above of the argument arrays, entry by
    entry. The same sum over k appears on both sides, so no law of the extended reals beyond reading the two programs is
    used, and the finiteness of the inputs is never opened.
-/
import proofs.«180724_j60215441490419_1_alg».proof.Defs
import proofs.«180724_j60215441490419_1_alg».proof.Proof.Gen.Kernel
import proofs.«180724_j60215441490419_1_alg».proof.Proof.Gen.Kernel.Frame
import proofs.«180724_j60215441490419_1_alg».proof.Proof.Gen.KernelIdeal
import proofs.«180724_j60215441490419_1_alg».proof.Proof.Gen.KernelIdeal.Frame
import proofs.«180724_j60215441490419_1_alg».proof.Proof.Gen.ReferenceIdeal
import proofs.«180724_j60215441490419_1_alg».proof.Proof.Gen.Pre_finite_inputs
import proofs.«180724_j60215441490419_1_alg».proof.Proof.Gen.ReferenceIdeal.Run
import proofs.«180724_j60215441490419_1_alg».proof.Proof.Gen.ReferenceIdeal.Read
import proofs.«180724_j60215441490419_1_alg».proof.Proof.TablesBits
import proofs.«180724_j60215441490419_1_alg».proof.Proof.TablesIdeal
import proofs.«180724_j60215441490419_1_alg».proof.Proof.KernelValue
import proofs.«180724_j60215441490419_1_alg».proof.Proof.RefValue
import Idealize.ShloMosaic.Adequacy
import Idealize.ShloMosaic.Init

noncomputable section

namespace Cert.Proof

open Idealize.ShloMosaic Idealize.SL.Sem

/-- The kernel runs: the tables it reads are its own constants, and every block they name is inside its array. -/
theorem frame_k : Cert.frame_Kernel := fun m ρ _ => Cert.Kernel.Gen.frame m ρ (Cert.Kernel.Tables.ok m)

/-- The same of the kernel read on the extended reals. -/
theorem frame_ki : Cert.frame_KernelIdeal := fun m ρ _ => Cert.KernelIdeal.Gen.frame m ρ (Cert.KernelIdeal.Tables.ok m)

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both idealized programs end with the result array at the one function of the argument arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v72_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
